-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x4096x1024 .f32) (main_arg1 : FVec F S1024x1024 .f32) (main_arg2 : FVec F S1024 .f32) (main_arg3 : FVec F S1024x1024 .f32) (main_arg4 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S16x4096x1024 : Shape := ⟨3, ![16, 4096, 1024]⟩
abbrev S1024x1024 : Shape := ⟨2, ![1024, 1024]⟩
abbrev S1024 : Shape := ⟨1, ![1024]⟩
abbrev S16x1024 : Shape := ⟨2, ![16, 1024]⟩
abbrev S8x256x1024 : Shape := ⟨3, ![8, 256, 1024]⟩
abbrev S8x1024 : Shape := ⟨2, ![8, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S16x1024, .f32⟩
  | .local _ .vmem, ⟨0, _⟩ => ⟨S8x256x1024, .f32⟩
  | .local _ .vmem, ⟨1, _⟩ => ⟨S8x256x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v10 : BitVec 1 := Scalar.cmpi .eq arg1 c15_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x256x1024_S8x256x1024_0_0_0 : ∀ a, (![0, 0, 0] : Fin 3 → Nat) a + S8x256x1024.size a ≤ S8x256x1024.size a
  h_S8x256x1024 : 0 < S8x256x1024.numel
  reduces_S8x256x1024_S8x1024 : S8x256x1024.Reduces [1] S8x1024
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S8x1024 : S1x1024.Broadcasts S8x1024
  dot_S8x1024_S1024x1024_S8x1024_1_0_0_1_n_n_wf : DotDims.WF S8x1024 S1024x1024 S8x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1024.size a ≤ S16x4096x1024.size a
  hwx0_0 : ∀ i : grid0.Coords, EltTy.bits .f32 = 32 ∨ (Rect.block (s := S16x4096x1024) S8x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S16x1024.size a
  hwx0_5 : ∀ i : grid0.Coords, EltTy.bits .f32 = 32 ∨ (Rect.block (s := S16x1024) S8x1024.size (cc0_transform_5 i) (hinb0_5 i)).WholeWords (EltTy.packing .f32)

variable [Facts₀]

def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf

abbrev win0_0 : Pipeline.Window sig grid0 :=
  Pipeline.Window.ofSpec (Memref.whole main_arg0) S8x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩
abbrev S16x1024 : Shape := ⟨2, ![16, 1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S1024x1024, .f32⟩
  | .hbm, ⟨11, _⟩ => ⟨S16x1024, .f32⟩
  | .hbm, ⟨12, _⟩ => ⟨S1x1024, .f32⟩
  | .hbm, ⟨13, _⟩ => ⟨S16x1024, .f32⟩
  | .hbm, ⟨14, _⟩ => ⟨S16x1024, .f32⟩
  | .hbm, ⟨15, _⟩ => ⟨S1024x1024, .f32⟩
  | .hbm, ⟨16, _⟩ => ⟨S16x1024, .f32⟩
  | .hbm, ⟨17, _⟩ => ⟨S1x1024, .f32⟩
  | .hbm, ⟨18, _⟩ => ⟨S16x1024, .f32⟩
  | .hbm, ⟨19, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S16x4096x1024_S16x1024_d1 : S16x4096x1024.ReducesTo [1] S16x1024
  h_S_ : 0 < S_.numel
  bcast_S_S16x1024 : S_.BroadcastsInDim S16x1024 (![] : Fin 0 → Fin S16x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  dot_S16x1024_S1024x1024_S16x1024_1_0_0_1_n_n_wf : DotDims.WF S16x1024 S1024x1024 S16x1024 [1] [0] [0] [1] [] []

variable [Facts₀]

def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf

class Facts : Prop extends Facts₀ where

variable [Facts]
-- ==== Proof.CaseValues.lean ====
/-
  What one grid point leaves behind, as the body's arithmetic.

  The kernel carries a running sum in a scratch block between grid points. At a point it first (at the first tile of
  a batch group only) overwrites the running sum with zeros, then always replaces it by itself plus the tile's column
  sums, and (at the last tile of a batch group only) sends the running sum through the mean and the two dense layers
  into the output block. Each of these stores covers its whole block, so what the point leaves in the scratch block and
  in the output block is the last store's value, with every earlier load reading back the value stored before it:

    first tile:  scratch = 0 + tile sums
    other tiles: scratch = (scratch before) + tile sums
    last tile:   also output = layers (scratch after the point).

  These hold for any reading of the floats.
-/
import proofs.«126975_j83210696393590_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.SL.Sem

variable {F : FTy → Type} [FloatOps F]

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- At the first tile of a batch group the scratch block ends at the zero block plus the tile's column sums: the zeros
    stored first are what the running sum's load reads back. -/
theorem scratch_first (c : Dev nD) (i : grid0.Coords) (arg2 : Memref sig .tc .vmem S8x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S8x1024 .f32) (harg7 : arg7.IsWhole) (arg8 : Memref sig .tc .vmem S8x1024 .f32) (harg8 : arg8.IsWhole) (hc0 : cond0_0 i) (hc1 : ¬cond0_1 i)
    (x0 : Vec F S8x256x1024 .f32) (x1 : Vec F S1024x1024 .f32) (x2 : Vec F S1024 .f32) (x3 : Vec F S1024x1024 .f32) (x4 : Vec F S1024 .f32) :
    sout0_A_0 c i arg2 harg2 arg3 harg3 arg4 harg4 arg5 harg5 arg6 harg6 arg7 harg7 arg8 harg8 hc0 hc1 x0 x1 x2 x3 x4 = k0_pay2 (k0_pay1 (F := F)) x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S8x1024) off2, View.readCov_unit_zero (S := S8x1024) _ off2]
  simp only [View.readAt_eq_ld, harg2.read_unread, View.ld_unit_zero (S := S8x256x1024) off3]

/-- At a tile that is neither first nor last the scratch block ends at what it held plus the tile's column sums. -/
theorem scratch_middle (c : Dev nD) (i : grid0.Coords) (arg2 : Memref sig .tc .vmem S8x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S8x1024 .f32) (harg7 : arg7.IsWhole) (arg8 : Memref sig .tc .vmem S8x1024 .f32) (harg8 : arg8.IsWhole) (hc0 : ¬cond0_0 i) (hc1 : ¬cond0_1 i)
    (x0 : Vec F S8x256x1024 .f32) (x1 : Vec F S1024x1024 .f32) (x2 : Vec F S1024 .f32) (x3 : Vec F S1024x1024 .f32) (x4 : Vec F S1024 .f32) (xs0 : Vec F S8x1024 .f32) :
    sout0_B_0 c i arg2 harg2 arg3 harg3 arg4 harg4 arg5 harg5 arg6 harg6 arg7 harg7 arg8 harg8 hc0 hc1 x0 x1 x2 x3 x4 xs0 = k0_pay2 xs0 x0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero off2]
  simp only [View.readAt_eq_ld, harg8.read_unread, harg2.read_unread, View.ld_unit_zero (S := S8x1024) off2,
    View.ld_unit_zero (S := S8x256x1024) off3]

/-- At the last tile of a batch group the scratch block ends, as at a middle tile, at what it held plus the tile's
    column sums. -/
theorem scratch_last (c : Dev nD) (i : grid0.Coords) (arg2 : Memref sig .tc .vmem S8x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S8x1024 .f32) (harg7 : arg7.IsWhole) (arg8 : Memref sig .tc .vmem S8x1024 .f32) (harg8 : arg8.IsWhole) (hc0 : ¬cond0_0 i) (hc1 : cond0_1 i)
    (x0 : Vec F S8x256x1024 .f32) (x1 : Vec F S1024x1024 .f32) (x2 : Vec F S1024 .f32) (x3 : Vec F S1024x1024 .f32) (x4 : Vec F S1024 .f32) (xs0 : Vec F S8x1024 .f32) :
    sout0_C_0 c i arg2 harg2 arg3 harg3 arg4 harg4 arg5 harg5 arg6 harg6 arg7 harg7 arg8 harg8 hc0 hc1 x0 x1 x2 x3 x4 xs0 = k0_pay2 xs0 x0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero off2]
  simp only [View.readAt_eq_ld, harg8.read_unread, harg2.read_unread, View.ld_unit_zero (S := S8x1024) off2,
    View.ld_unit_zero (S := S8x256x1024) off3]

/-- At the last tile the output block ends at the mean and the two dense layers of the running sum the point has just
    completed: the layers' load of the scratch block reads back the sum stored a moment before. -/
theorem output_last (c : Dev nD) (i : grid0.Coords) (arg2 : Memref sig .tc .vmem S8x256x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S1024x1024 .f32) (harg5 : arg5.IsWhole) (arg6 : Memref sig .tc .vmem S1024 .f32) (harg6 : arg6.IsWhole) (arg7 : Memref sig .tc .vmem S8x1024 .f32) (harg7 : arg7.IsWhole) (arg8 : Memref sig .tc .vmem S8x1024 .f32) (harg8 : arg8.IsWhole) (hc0 : ¬cond0_0 i) (hc1 : cond0_1 i)
    (x0 : Vec F S8x256x1024 .f32) (x1 : Vec F S1024x1024 .f32) (x2 : Vec F S1024 .f32) (x3 : Vec F S1024x1024 .f32) (x4 : Vec F S1024 .f32) (xs0 : Vec F S8x1024 .f32) :
    out0_C_5 c i arg2 harg2 arg3 harg3 arg4 harg4 arg5 harg5 arg6 harg6 arg7 harg7 arg8 harg8 hc0 hc1 x0 x1 x2 x3 x4 xs0 = k0_pay3 (k0_pay2 xs0 x0) x1 x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero off2, View.readCov_unit_zero (S := S8x1024) _ off2]
  simp only [View.readAt_eq_ld, harg8.read_unread, harg2.read_unread, harg3.read_unread, harg4.read_unread,
    harg5.read_unread, harg6.read_unread, View.ld_unit_zero (S := S8x1024) off2,
    View.ld_unit_zero (S := S8x256x1024) off3, View.ld_unit_zero (S := S1024x1024) off2,
    View.ld_unit_zero (S := S1024) off1]

end Cert.KernelIdeal.CaseValues

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«126975_j83210696393590_1_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibDenseRows.lean ====
/-
  Dense layers and a row-wise softmax, read one row at a time on the extended reals.

  A dense layer sends a row x to x Wᵀ + b: entry f is the sum over d of x d · W f d, plus b f.  A graph layer adds a
  second product and a tanh: entry f is tanh ((∑ a d · Wl f d) + bl f + ∑ h d · Wr f d), the sum associated in that
  order.  A softmax sends a row l to exp (l q − m) / ∑ exp (l k − m) with m the maximum of the row (taken once more
  against −∞, which changes nothing).  On the extended reals a change of float format is the identity, a matrix product
  accumulated into zero is the plain sum of products, a reduction along the last axis is the sum or supremum over that
  axis, and the layout operations only move coordinates.  So each of these, written with a kernel's vector operations on
  an [M, ·] block or with the host's operations on an [M, ·] array, is at (p, f) the row function of row p: the lemmas
  below say so for any extents M, K, N.
-/
import Idealize.ShloMosaic.PureOps.Ideal.Laws
import Idealize.ShloMosaic.Lib.ValueIdx
import Idealize.ShloMosaic.Lib.ValueLayout
import Idealize.ShloMosaic.Lib.Pipeline.Value
import proofs.«126975_j83210696393590_1_alg».proof.Proof.LibInnerProducts
import proofs.«126975_j83210696393590_1_alg».proof.Proof.LibInDimRow
import proofs.«126975_j83210696393590_1_alg».proof.Proof.LibKeepdims
import proofs.«126975_j83210696393590_1_alg».proof.Proof.LibInDimLayout
import proofs.«126975_j83210696393590_1_alg».proof.Proof.LibExtremeReduce

noncomputable section

namespace Cert.DenseRows

open Idealize.ShloMosaic Idealize.ShloMosaic.ValueIdx
open scoped BigOperators

/-! ## The row functions -/

/-- A dense layer on one row: entry f of x Wᵀ + b. -/
def dense {K N : ℕ} (x : Fin K → EReal) (W : Fin N → Fin K → EReal) (b : Fin N → EReal) (f : Fin N) : EReal :=
  (∑ d : Fin K, x d * W f d) + b f

/-- A graph layer on one node: tanh of (a Wlᵀ + bl) + h Wrᵀ, at entry f. -/
def sage {K N : ℕ} (a h : Fin K → EReal) (Wl : Fin N → Fin K → EReal) (bl : Fin N → EReal) (Wr : Fin N → Fin K → EReal)
    (f : Fin N) : EReal :=
  Ideal.tanh (((∑ d : Fin K, a d * Wl f d) + bl f) + ∑ d : Fin K, h d * Wr f d)

/-- The softmax of one row, the row maximum taken once more against −∞. -/
def softmax {n : ℕ} (l : Fin n → EReal) (q : Fin n) : EReal :=
  Ideal.div (Ideal.exp (l q - max ⊥ (⨆ k : Fin n, l k))) (∑ k : Fin n, Ideal.exp (l k - max ⊥ (⨆ j : Fin n, l j)))

/-! ## A product against a transposed weight matrix -/

/-- An [M, K] block times the transpose of an [N, K] matrix, accumulated into zero: at (p, f) the sum over d of
    a (p, d) · w (f, d). -/
theorem matmulT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    matmul D prec a (transpose ⟨2, ![K, N]⟩ [1, 0] w ht) (constant (F := Ideal) ⟨2, ![M, N]⟩ .f32 0x00000000#32) (ix2 p f)
      = ∑ d : Fin K, a (ix2 p d) * w (ix2 f d) :=
  (InnerProducts.matmul_zero_apply D hD prec a (transpose ⟨2, ![K, N]⟩ [1, 0] w ht) p f).trans
    (Finset.sum_congr rfl fun d _ => congrArg (a (ix2 p d) * ·) (transpose_ix2_apply w ht d f))

/-- The host's product of an [M, K] array with the transpose of an [N, K] matrix: the same sum. -/
theorem dotGeneralT_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![N, K]⟩ φ₂)
    (ht : (⟨2, ![N, K]⟩ : Shape).Transposes [1, 0] ⟨2, ![K, N]⟩) (p : Fin M) (f : Fin N) :
    Host.dotGeneral D prec a (transpose ⟨2, ![K, N]⟩ [1, 0] w ht) (ix2 p f) = ∑ d : Fin K, a (ix2 p d) * w (ix2 f d) :=
  (InnerProducts.dotGeneral_apply D hD prec a (transpose ⟨2, ![K, N]⟩ [1, 0] w ht) p f).trans
    (Finset.sum_congr rfl fun d _ => congrArg (a (ix2 p d) * ·) (transpose_ix2_apply w ht d f))

/-! ## A bias row spread over the rows -/

/-- A vector [N] cast to a row [1, N] and broadcast over M rows reads entry f at (p, f). -/
theorem biasRow_apply {M N : ℕ} {α : Type} (b : (⟨1, ![N]⟩ : Shape).Idx → α) (hc : (⟨1, ![N]⟩ : Shape).ShapeCasts ⟨2, ![1, N]⟩)
    (hb : (⟨2, ![1, N]⟩ : Shape).Broadcasts ⟨2, ![M, N]⟩) (p : Fin M) (f : Fin N) :
    broadcastTo ⟨2, ![M, N]⟩ (shapeCast ⟨2, ![1, N]⟩ b hc) hb (ix2 p f) = b (ix1 f) :=
  (broadcastTo_1b_ab_apply _ hb p f).trans (shapeCast_a_1a_apply b hc 0 f)

/-- The host's two broadcasts of a bias vector [N] to [1, N] and on to [M, N] read entry f at (p, f). -/
theorem biasRowHost_apply {M N : ℕ} {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    broadcastInDim ⟨2, ![M, N]⟩ ![0, 1] h2 (broadcastInDim ⟨2, ![1, N]⟩ ![1] h1 b) (ix2 p f) = b (ix1 f) :=
  (Cert.LibInDimRow.inDim_1b_ab_apply _ h2 p f).trans (Cert.LibInDimRow.inDim_b_1b_apply b h1 0 f)

/-! ## A dense layer -/

/-- A kernel's dense layer on a block X (of any float format): X times the transposed, format-changed weights into
    zero, plus the bias row. -/
theorem dense_kernel_apply {M K N : ℕ} {φ : FTy} (D : DotDims ⟨2, ![M, K]⟩ ⟨2, ![K, N]⟩ ⟨2, ![M, N]⟩)
    (hD : D = DotDims.plain M K N) (X : FVec Ideal ⟨2, ![M, K]⟩ φ) (w : FVec Ideal ⟨2, ![N, K]⟩ .f32)
    (b : FVec Ideal ⟨1, ![N]⟩ .f32) (hbits : FTy.bf16.bits < FTy.f32.bits)
    (ht : (⟨2, ![N, K]⟩ : Shape).Transposes [1, 0] ⟨2, ![K, N]⟩) (hc : (⟨1, ![N]⟩ : Shape).ShapeCasts ⟨2, ![1, N]⟩)
    (hb : (⟨2, ![1, N]⟩ : Shape).Broadcasts ⟨2, ![M, N]⟩) (p : Fin M) (f : Fin N) :
    addf (matmul D none X (transpose ⟨2, ![K, N]⟩ [1, 0] (truncf .bf16 w hbits) ht)
        (constant (F := Ideal) ⟨2, ![M, N]⟩ .f32 0x00000000#32))
      (broadcastTo ⟨2, ![M, N]⟩ (shapeCast ⟨2, ![1, N]⟩ b hc) hb) (ix2 p f)
      = dense (fun d => (X (ix2 p d) : EReal)) (fun f d => w (ix2 f d)) (fun f => b (ix1 f)) f := by
  show _ + _ = _
  rw [matmulT_apply D hD none X (truncf .bf16 w hbits) ht p f, biasRow_apply b hc hb p f]
  rfl

/-- The host's dense layer on an array X. -/
theorem dense_host_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    addf (Host.dotGeneral D none X (transpose ⟨2, ![K, N]⟩ [1, 0] w ht))
      (broadcastInDim ⟨2, ![M, N]⟩ ![0, 1] h2 (broadcastInDim ⟨2, ![1, N]⟩ ![1] h1 b)) (ix2 p f)
      = dense (fun d => X (ix2 p d)) (fun f d => w (ix2 f d)) (fun f => b (ix1 f)) f := by
  show _ + _ = _
  rw [dotGeneralT_apply D hD none X w ht p f, biasRowHost_apply b h1 h2 p f]
  rfl

/-! ## A graph layer -/

/-- A kernel's graph layer on two [M, K] blocks. -/
theorem sage_kernel_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (hs : (⟨2, ![M, K]⟩ : Shape).ShapeCasts ⟨2, ![M, K]⟩)
    (hbits : FTy.bf16.bits < FTy.f32.bits) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    tanh (addf (addf (matmul D none (truncf .bf16 (shapeCast ⟨2, ![M, K]⟩ x hs) hbits)
            (transpose ⟨2, ![K, N]⟩ [1, 0] (truncf .bf16 wl hbits) ht) (constant (F := Ideal) ⟨2, ![M, N]⟩ .f32 0x00000000#32))
          (broadcastTo ⟨2, ![M, N]⟩ (shapeCast ⟨2, ![1, N]⟩ b hc) hb))
        (matmul D none (truncf .bf16 (shapeCast ⟨2, ![M, K]⟩ y hs) hbits)
          (transpose ⟨2, ![K, N]⟩ [1, 0] (truncf .bf16 wr hbits) ht) (constant (F := Ideal) ⟨2, ![M, N]⟩ .f32 0x00000000#32)))
      (ix2 p f)
      = sage (fun d => x (ix2 p d)) (fun d => y (ix2 p d)) (fun f d => wl (ix2 f d)) (fun f => b (ix1 f))
          (fun f d => wr (ix2 f d)) f := by
  show Ideal.tanh ((_ + _) + _) = _
  rw [matmulT_apply D hD none (truncf .bf16 (shapeCast ⟨2, ![M, K]⟩ x hs) hbits) (truncf .bf16 wl hbits) ht p f,
    matmulT_apply D hD none (truncf .bf16 (shapeCast ⟨2, ![M, K]⟩ y hs) hbits) (truncf .bf16 wr hbits) ht p f,
    biasRow_apply b hc hb p f, shapeCast_self x hs, shapeCast_self y hs]
  rfl

/-- The host's graph layer on two [M, K] arrays. -/
theorem sage_host_apply {M K N : ℕ} (D : DotDims ⟨2, ![M, K]⟩ ⟨2, ![K, N]⟩ ⟨2, ![M, N]⟩)
    (hD : D = DotDims.plain M K N) (x y : FVec Ideal ⟨2, ![M, K]⟩ .f32) (wl wr : FVec Ideal ⟨2, ![N, K]⟩ .f32)
    (b : FVec Ideal ⟨1, ![N]⟩ .f32) (ht : (⟨2, ![N, K]⟩ : Shape).Transposes [1, 0] ⟨2, ![K, N]⟩)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (f : Fin N) :
    Host.tanh (addf (addf (Host.dotGeneral D none x (transpose ⟨2, ![K, N]⟩ [1, 0] wl ht))
          (broadcastInDim ⟨2, ![M, N]⟩ ![0, 1] h2 (broadcastInDim ⟨2, ![1, N]⟩ ![1] h1 b)))
        (Host.dotGeneral D none y (transpose ⟨2, ![K, N]⟩ [1, 0] wr ht))) (ix2 p f)
      = sage (fun d => x (ix2 p d)) (fun d => y (ix2 p d)) (fun f d => wl (ix2 f d)) (fun f => b (ix1 f))
          (fun f d => wr (ix2 f d)) f := by
  show Ideal.tanh ((_ + _) + _) = _
  rw [dotGeneralT_apply D hD none x wl ht p f, dotGeneralT_apply D hD none y wr ht p f, biasRowHost_apply b h1 h2 p f]
  rfl

end Cert.DenseRows

end
-- ==== Proof.LibBlockedSum.lean ====
/-
  A sum over a long axis, taken block by block.

  A sum over the first a·b naturals can be taken in a consecutive blocks of b terms: the term at position k sits in
  block k / b at place k % b, that is at b·s + d with s the block and d the place. Only commutativity and
  associativity of the addition are used, so the statement holds in any commutative monoid — in particular on the
  extended reals, where no finiteness is needed.
-/
import Mathlib.Algebra.BigOperators.Fin
import Mathlib.Logic.Equiv.Fin.Basic

open scoped BigOperators

namespace Cert.LibBlockedSum

/-- The sum over s < a of the sums over d < b of f (b·s + d) is the sum of f over the first a·b naturals. -/
theorem sum_range_blocks {β : Type*} [AddCommMonoid β] (a b : ℕ) (f : ℕ → β) :
    ∑ s ∈ Finset.range a, ∑ d : Fin b, f (b * s + d.val) = ∑ k : Fin (a * b), f k.val := by
  rw [← Equiv.sum_comp finProdFinEquiv (fun k : Fin (a * b) => f k.val), Fintype.sum_prod_type, Finset.sum_range]
  refine Finset.sum_congr rfl fun s _ => Finset.sum_congr rfl fun d _ => ?_
  refine congrArg f ?_
  show b * s.val + d.val = d.val + b * s.val
  exact Nat.add_comm _ _

end Cert.LibBlockedSum
-- ==== Proof.PooledLayers.lean ====
/-
  The function both programs compute, index by index, over the extended reals.

  `x` is a [16, 4096, 1024] array: 16 batches of 4096 rows of 1024 features. Row `b` of the pooled matrix is the mean
  of batch `b` over its 4096 rows, `mean b d = (Σ_s x (b, s, d)) · 2⁻¹²`; the factor is the f32 word `0x39800000`,
  which is exactly 2⁻¹² = 1/4096. Two dense layers with transposed weights follow,
  `enc b h = Σ_d mean b d · W_enc (h, d) + b_enc h` and `out b o = Σ_h enc b h · W_out (o, h) + b_out o`.

  Two facts join the two programs to this function. Dividing an extended real by 4096 is multiplying it by 2⁻¹²
  (at the infinities too). And the sum over the 4096 rows may be taken in 16 consecutive tiles of 256 rows, which uses
  only that addition on the extended reals is commutative and associative: no finiteness is needed anywhere.
-/
import Idealize.ShloMosaic.PureOps.Ideal
import Idealize.ShloMosaic.Lib.ValueIdx
import proofs.«126975_j83210696393590_1_alg».proof.Proof.LibDenseRows
import proofs.«126975_j83210696393590_1_alg».proof.Proof.LibBlockedSum

noncomputable section

namespace Cert.PooledLayers

open Idealize.ShloMosaic Idealize.ShloMosaic.ValueIdx Cert.DenseRows
open scoped BigOperators

/-! ## The two float words of the mean -/

/-- The f32 word `0x39800000` denotes 2⁻¹² = 1/4096. -/
theorem ofBits_inv4096 : Ideal.ofBits .f32 0x39800000#32 = ((1 / 4096 : ℝ) : EReal) := by
  simp [Ideal.ofBits, Ideal.ieee, -EReal.coe_mul]; norm_num

/-- The f32 word `0x45800000` denotes 4096. -/
theorem ofBits_4096 : Ideal.ofBits .f32 0x45800000#32 = ((4096 : ℝ) : EReal) := by
  simp [Ideal.ofBits, Ideal.ieee, -EReal.coe_mul]; norm_num

/-- Dividing by 4096 is multiplying by 2⁻¹², on every extended real. -/
theorem div_4096 (y : EReal) :
    Ideal.div y (Ideal.ofBits .f32 0x45800000#32) = y * Ideal.ofBits .f32 0x39800000#32 := by
  rw [ofBits_4096, ofBits_inv4096, Ideal.div_coe (by norm_num : (4096 : ℝ) ≠ 0)]

/-! ## The function -/

/-- The mean of batch `b` over its 4096 rows, at feature `d`. -/
def rowMean (x : FVec Ideal ⟨3, ![16, 4096, 1024]⟩ .f32) (b : Fin 16) (d : Fin 1024) : EReal :=
  (∑ s : Fin 4096, x (ix3 b s d)) * Ideal.ofBits .f32 0x39800000#32

/-- The pooled mean sent through the two dense layers: entry (b, o) of the result. -/
def pooledLayers (x : FVec Ideal ⟨3, ![16, 4096, 1024]⟩ .f32) (wEnc : FVec Ideal ⟨2, ![1024, 1024]⟩ .f32)
    (bEnc : FVec Ideal ⟨1, ![1024]⟩ .f32) (wOut : FVec Ideal ⟨2, ![1024, 1024]⟩ .f32)
    (bOut : FVec Ideal ⟨1, ![1024]⟩ .f32) : FVec Ideal ⟨2, ![16, 1024]⟩ .f32 :=
  fun i => dense (dense (rowMean x (i 0)) (fun h d => wEnc (ix2 h d)) (fun h => bEnc (ix1 h)))
    (fun o h => wOut (ix2 o h)) (fun o => bOut (ix1 o)) (i 1)

/-! ## The sum over 4096 rows, tile by tile -/

/-- The sum of a family over 4096 places is the sum over 16 consecutive tiles of the sums of the tiles' 256 places. -/
theorem sum_tiles (g : Fin 4096 → EReal) :
    ∑ t ∈ Finset.range 16, ∑ k : Fin 256, (if h : 256 * t + k.val < 4096 then g ⟨256 * t + k.val, h⟩ else 0)
      = ∑ s : Fin 4096, g s := by
  refine (Cert.LibBlockedSum.sum_range_blocks 16 256 (fun n => if h : n < 4096 then g ⟨n, h⟩ else 0)).trans ?_
  show ∑ s : Fin 4096, (if h : s.val < 4096 then g ⟨s.val, h⟩ else 0) = _
  exact Finset.sum_congr rfl fun s _ => dif_pos s.isLt

end Cert.PooledLayers

end
-- ==== Proof.LibPlainDense.lean ====
/-
  A kernel's dense layer with no change of float format, read one row at a time on the extended reals.

  A block X of M rows times the transpose of an [N, K] weight matrix, accumulated into zero, plus a bias vector cast
  to a row and spread over the M rows, is at (p, f) the dense layer of row p: the sum over d of X (p, d) · W (f, d),
  plus b f. For any extents M, K, N.
-/
import proofs.«126975_j83210696393590_1_alg».proof.Proof.LibDenseRows

noncomputable section

namespace Cert.LibPlainDense

open Idealize.ShloMosaic Idealize.ShloMosaic.ValueIdx Cert.DenseRows
open scoped BigOperators

/-- A kernel's dense layer on a block X, its weights used as they are: X times the transposed weights into zero, plus
    the bias row, is at (p, f) the dense layer of row p of X. -/
theorem dense_block_apply {M K N : ℕ} (D : DotDims ⟨2, ![M, K]⟩ ⟨2, ![K, N]⟩ ⟨2, ![M, N]⟩)
    (hD : D = DotDims.plain M K N) (X : FVec Ideal ⟨2, ![M, K]⟩ .f32) (w : FVec Ideal ⟨2, ![N, K]⟩ .f32)
    (b : FVec Ideal ⟨1, ![N]⟩ .f32) (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (f : Fin N) :
    addf (matmul D none X (transpose ⟨2, ![K, N]⟩ [1, 0] w ht) (constant (F := Ideal) ⟨2, ![M, N]⟩ .f32 0x00000000#32))
      (broadcastTo ⟨2, ![M, N]⟩ (shapeCast ⟨2, ![1, N]⟩ b hc) hb) (ix2 p f)
      = dense (fun d => X (ix2 p d)) (fun f d => w (ix2 f d)) (fun f => b (ix1 f)) f := by
  show _ + _ = _
  rw [matmulT_apply D hD none X w ht p f, biasRow_apply b hc hb p f]
  rfl

end Cert.LibPlainDense

end
-- ==== Proof.TileArithmetic.lean ====
/-
  The body's three values read at an index, on the extended reals.

  The block of zeros is 0 everywhere. The running sum's update is, at (r, d), what the scratch block held there plus the
  sum over the tile's 256 rows k of the tile at (r, k, d). The epilogue is, at (r, o), the two dense layers of the row
  `d ↦ acc (r, d) · 2⁻¹²`: a product into the zero accumulator is the plain sum of products, the transposes and the bias
  rows only move coordinates, and nothing is rounded.
-/
import proofs.«126975_j83210696393590_1_alg».proof.Proof.Gen.KernelIdeal.Skeleton
import proofs.«126975_j83210696393590_1_alg».proof.Proof.PooledLayers
import proofs.«126975_j83210696393590_1_alg».proof.Proof.LibPlainDense
import Idealize.ShloMosaic.PureOps.Ideal.Laws
import Idealize.ShloMosaic.Lib.Pipeline.Value

noncomputable section

namespace Cert.KernelIdeal.TileArithmetic

open Cert.KernelIdeal Cert.KernelIdeal.Gen Idealize.ShloMosaic Idealize.ShloMosaic.ValueIdx
open Cert.DenseRows Cert.PooledLayers
open scoped BigOperators

/-- The block of zeros is 0 at every index. -/
theorem zeros_apply (j : S8x1024.Idx) : k0_pay1 (F := Ideal) j = 0 := by
  unfold k0_pay1
  rw [shapeCast_self]
  exact Ideal.ofBits_zero_f32

/-- The sum of a tile [8, 256, 1024] along its 256 rows, at (r, d). -/
theorem tile_sum_apply (v4 : Vec Ideal S8x256x1024 .f32) (r : Fin 8) (d : Fin 1024) :
    multiReduction (F := Ideal) .add [1] S8x1024 v4 0x00000000#32 reduces_S8x256x1024_S8x1024 (.inl rfl) rfl (ix2 r d)
      = ∑ k : Fin 256, v4 (ix3 r k d) := by
  refine (Ideal.multiReduction_add_single v4 _ reduces_S8x256x1024_S8x1024 (.inl rfl) rfl (ix2 r d)).trans ?_
  show ∑ k : Fin 256, v4 (reduces_S8x256x1024_S8x1024.lift (ix2 r d) k) = ∑ k : Fin 256, v4 (ix3 r k d)
  refine Finset.sum_congr rfl fun k _ => congrArg v4 (funext fun ax => Fin.ext ?_)
  match ax with
  | ⟨0, _⟩ => rfl
  | ⟨1, _⟩ => rfl
  | ⟨2, _⟩ => rfl

/-- The running sum's update at (r, d): what was there plus the tile's column sum. -/
theorem add_tile_apply (v3 : Vec Ideal S8x1024 .f32) (v4 : Vec Ideal S8x256x1024 .f32) (r : Fin 8) (d : Fin 1024) :
    k0_pay2 (F := Ideal) v3 v4 (ix2 r d) = v3 (ix2 r d) + ∑ k : Fin 256, v4 (ix3 r k d) := by
  unfold k0_pay2
  rw [shapeCast_self]
  show v3 (ix2 r d) + _ = _
  exact congrArg (v3 (ix2 r d) + ·) (tile_sum_apply v4 r d)

/-- The epilogue at (r, o): the two dense layers of the row `d ↦ acc (r, d) · 2⁻¹²`. -/
theorem layers_apply (v13 : Vec Ideal S8x1024 .f32) (v16 : Vec Ideal S1024x1024 .f32) (v19 : Vec Ideal S1024 .f32)
    (v23 : Vec Ideal S1024x1024 .f32) (v26 : Vec Ideal S1024 .f32) (r : Fin 8) (o : Fin 1024) :
    k0_pay3 (F := Ideal) v13 v16 v19 v23 v26 (ix2 r o)
      = dense (dense (fun d => v13 (ix2 r d) * Ideal.ofBits .f32 0x39800000#32) (fun h d => v16 (ix2 h d))
          (fun h => v19 (ix1 h))) (fun o h => v23 (ix2 o h)) (fun o => v26 (ix1 o)) o := by
  unfold k0_pay3
  refine (Cert.LibPlainDense.dense_block_apply dot_S8x1024_S1024x1024_S8x1024_1_0_0_1_n_n rfl _ v23 v26
    transposes_S1024x1024_p1_0_S1024x1024 shapeCasts_S1024_S1x1024 broadcasts_S1x1024_S8x1024 r o).trans ?_
  refine congrArg (fun e => dense e (fun o h => v23 (ix2 o h)) (fun o => v26 (ix1 o)) o) (funext fun h => ?_)
  exact Cert.LibPlainDense.dense_block_apply dot_S8x1024_S1024x1024_S8x1024_1_0_0_1_n_n rfl _ v16 v19
    transposes_S1024x1024_p1_0_S1024x1024 shapeCasts_S1024_S1x1024 broadcasts_S1x1024_S8x1024 r h

end Cert.KernelIdeal.TileArithmetic

end
-- ==== Proof.BlockReads.lean ====
/-
  Which entries of the argument arrays a grid point's blocks hold.

  The grid has 2 × 16 points; point t works on batch group t / 16 (8 batches) and row tile t % 16 (256 rows). Its block
  of `x` is rows 256·(t % 16) … of batches 8·(t / 16) …: entry (r, k, d) of the block is entry
  (8·(t / 16) + r, 256·(t % 16) + k, d) of `x`. The weight matrices and bias vectors are staged whole at every point.
-/
import proofs.«126975_j83210696393590_1_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of every window at every grid point. -/
theorem index_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val / 16 ∧ win0_5.index t (1 : Fin 2) = 0 :=
  (by decide +kernel : ∀ t : Fin grid0.N, _)

/-- Entry (r, k, d) of point t's block of `x` is entry (8·q + r, 256·s + k, d) of `x`, for q = t / 16 and s = t % 16. -/
theorem tile_read (c : Dev nD) (t : Fin cfg0.N) (q s : ℕ) (hq : t.val / 16 = q) (hs : t.val % 16 = s)
    (r : Fin 8) (k : Fin 256) (d : Fin 1024) (hb : 8 * q + r.val < 16) (hk : 256 * s + k.val < 4096) :
    (iblk m c 0 t : Vec F S8x256x1024 .f32) (ix3 r k d) = V m c main_arg0 (ix3 ⟨8 * q + r.val, hb⟩ ⟨256 * s + k.val, hk⟩ d) := by
  obtain ⟨e0, e1, e2, -⟩ := index_facts t
  show V m c main_arg0 (((cfg0.win 0).blk t).view.emb (ix3 r k d)) = _
  refine congrArg (V m c main_arg0) (funext fun a => Fin.ext ?_)
  match a with
  | ⟨0, _⟩ => show win0_0.index t (0 : Fin 3) * 8 + 1 * r.val = 8 * q + r.val; omega
  | ⟨1, _⟩ => show win0_0.index t (1 : Fin 3) * 256 + 1 * k.val = 256 * s + k.val; omega
  | ⟨2, _⟩ => show win0_0.index t (2 : Fin 3) * 1024 + 1 * d.val = d.val; omega

/-- The first weight matrix is staged whole. -/
theorem wEnc_read (c : Dev nD) (t : Fin cfg0.N) : (iblk m c 1 t : Vec F S1024x1024 .f32) = V m c main_arg1 := by
  obtain ⟨-, -, -, e0, e1, -⟩ := index_facts t
  funext j
  show V m c main_arg1 (((cfg0.win 1).blk t).view.emb j) = _
  refine congrArg (V m c main_arg1) (funext fun a => Fin.ext ?_)
  match a with
  | ⟨0, _⟩ => show win0_1.index t (0 : Fin 2) * 1024 + 1 * (j 0).val = (j 0).val; omega
  | ⟨1, _⟩ => show win0_1.index t (1 : Fin 2) * 1024 + 1 * (j 1).val = (j 1).val; omega

/-- The first bias vector is staged whole. -/
theorem bEnc_read (c : Dev nD) (t : Fin cfg0.N) : (iblk m c 2 t : Vec F S1024 .f32) = V m c main_arg2 := by
  obtain ⟨-, -, -, -, -, e0, -⟩ := index_facts t
  funext j
  show V m c main_arg2 (((cfg0.win 2).blk t).view.emb j) = _
  refine congrArg (V m c main_arg2) (funext fun a => Fin.ext ?_)
  match a with
  | ⟨0, _⟩ => show win0_2.index t (0 : Fin 1) * 1024 + 1 * (j 0).val = (j 0).val; omega

/-- The second weight matrix is staged whole. -/
theorem wOut_read (c : Dev nD) (t : Fin cfg0.N) : (iblk m c 3 t : Vec F S1024x1024 .f32) = V m c main_arg3 := by
  obtain ⟨-, -, -, -, -, -, e0, e1, -⟩ := index_facts t
  funext j
  show V m c main_arg3 (((cfg0.win 3).blk t).view.emb j) = _
  refine congrArg (V m c main_arg3) (funext fun a => Fin.ext ?_)
  match a with
  | ⟨0, _⟩ => show win0_3.index t (0 : Fin 2) * 1024 + 1 * (j 0).val = (j 0).val; omega
  | ⟨1, _⟩ => show win0_3.index t (1 : Fin 2) * 1024 + 1 * (j 1).val = (j 1).val; omega

/-- The second bias vector is staged whole. -/
theorem bOut_read (c : Dev nD) (t : Fin cfg0.N) : (iblk m c 4 t : Vec F S1024 .f32) = V m c main_arg4 := by
  obtain ⟨-, -, -, -, -, -, -, -, e0, -⟩ := index_facts t
  funext j
  show V m c main_arg4 (((cfg0.win 4).blk t).view.emb j) = _
  refine congrArg (V m c main_arg4) (funext fun a => Fin.ext ?_)
  match a with
  | ⟨0, _⟩ => show win0_4.index t (0 : Fin 1) * 1024 + 1 * (j 0).val = (j 0).val; omega

end Cert.KernelIdeal.BlockReads

end
-- ==== Proof.RunningSum.lean ====
/-
  The running sum the kernel carries through a batch group's 16 row tiles.

  One step: after point n the scratch block holds, at (r, d), the column sum of the point's tile there, added to what
  the scratch block held before — or to zero at the first tile of a batch group, where the kernel resets it. Sixteen
  steps: after the last tile of batch group q the scratch block holds at (r, d) the sum over all 4096 rows s of
  x (8·q + r, s, d), because sixteen consecutive tiles of 256 rows are the 4096 rows, and sums on the extended reals
  may be regrouped freely.
-/
import proofs.«126975_j83210696393590_1_alg».proof.Proof.Gen.KernelIdeal.Value
import proofs.«126975_j83210696393590_1_alg».proof.Proof.CaseValues
import proofs.«126975_j83210696393590_1_alg».proof.Proof.TileArithmetic
import proofs.«126975_j83210696393590_1_alg».proof.Proof.BlockReads

noncomputable section

namespace Cert.KernelIdeal.RunningSum

open Cert.KernelIdeal Cert.KernelIdeal.Gen Idealize.ShloMosaic Idealize.ShloMosaic.TcCoe Idealize.SL.Sem
open Idealize.ShloMosaic.ValueIdx Cert.PooledLayers
open Cert.KernelIdeal.CaseValues Cert.KernelIdeal.TileArithmetic Cert.KernelIdeal.BlockReads
open scoped BigOperators

variable (m : (ℓ : Loc nD τ sig) → Buf (Elt Ideal) ℓ)

/-- The argument `x` as the region finds it: an array of extended reals. -/
abbrev xArr (c : Dev nD) : FVec Ideal ⟨3, ![16, 4096, 1024]⟩ .f32 := V m c main_arg0

/-- Point t's tile of `x`: 8 batches, 256 rows, 1024 features. -/
abbrev tile (c : Dev nD) (t : Fin cfg0.N) : FVec Ideal ⟨3, ![8, 256, 1024]⟩ .f32 := iblk m c 0 t

/-- The column sums of point n's tile of `x`, at an index of the scratch block (zero past the grid, where no point is). -/
def tileSum (c : Dev nD) (n : ℕ) (j : S8x1024.Idx) : EReal :=
  if h : n < cfg0.N then ∑ k : Fin 256, tile m c (⟨n, h⟩ : Fin cfg0.N) (ix3 (j 0) k (j 1)) else 0

/-- One step of the running sum at (r, d): the tile's column sum added to what was there, or to zero at the first tile of a
    batch group. -/
theorem step_apply (c : Dev nD) (n : ℕ) (hb : n < cfg0.N) (acc : Vec Ideal S8x1024 .f32) (r : Fin 8) (d : Fin 1024) :
    Value.scAt0_0 m c n hb acc (ix2 r d)
      = (if n % 16 = 0 then 0 else acc (ix2 r d)) + tileSum m c n (ix2 r d) := by
  have hN : n < 32 := lt_of_lt_of_eq hb (show cfg0.N = 32 from N_0)
  have hT : tileSum m c n (ix2 r d) = ∑ k : Fin 256, tile m c (⟨n, hb⟩ : Fin cfg0.N) (ix3 r k d) := by
    unfold tileSum; rw [dif_pos hb]
  rw [hT]
  unfold Value.scAt0_0
  by_cases h0 : n % 16 = 0
  · have h1 : ¬n % 16 = 15 := by omega
    rw [dif_pos h0, dif_neg h1, if_pos h0]
    refine (congrFun (scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))) (ix2 r d)).trans ?_
    refine (add_tile_apply (k0_pay1 (F := Ideal)) (iblk m c 0 (⟨n, hb⟩ : Fin cfg0.N)) r d).trans ?_
    rw [zeros_apply]
  · rw [dif_neg h0, if_neg h0]
    by_cases h1 : n % 16 = 15
    · rw [dif_pos h1]
      refine (congrFun (scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 r d)).trans ?_
      exact add_tile_apply acc (iblk m c 0 (⟨n, hb⟩ : Fin cfg0.N)) r d
    · rw [dif_neg h1]
      refine (congrFun (scratch_middle (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc) (ix2 r d)).trans ?_
      exact add_tile_apply acc (iblk m c 0 (⟨n, hb⟩ : Fin cfg0.N)) r d

/-- After the last tile of its batch group (t % 16 = 15) the scratch block holds at (r, d) the sum over all 4096 rows of
    `x` at batch 8·(t / 16) + r and feature d. -/
theorem scratch_sum (c : Dev nD) (t : Fin cfg0.N) (hlast : t.val % 16 = 15) (r : Fin 8) (d : Fin 1024)
    (hbt : 8 * (t.val / 16) + r.val < 16) :
    (outsAt0 m c t.val t.isLt).2 (ix2 r d)
      = ∑ s : Fin 4096, xArr m c (ix3 ⟨8 * (t.val / 16) + r.val, hbt⟩ s d) := by
  have hN : cfg0.N = 32 := N_0
  have ht : t.val < 32 := lt_of_lt_of_eq t.isLt hN
  rw [Value.soutsAt0_0_eq m c t]
  rw [Pipeline.accAt_add_apply (ι := S8x1024.Idx) (β := EReal)
    (fun n h => Value.scAt0_0 m c n h (VS0_0.read (Elt Ideal) VS0_0.junk)) (Value.scAt0_0 m c)
    (fun _ => 0) (tileSum m c) (16 * (t.val / 16)) 15
    (fun h i => by
      obtain ⟨r', d', rfl⟩ : ∃ (r' : Fin 8) (d' : Fin 1024), i = ix2 r' d' := ⟨i 0, i 1, eq_ix2 i⟩
      rw [step_apply m c _ h _ r' d', if_pos (by omega)])
    (fun n h acc i h1 h2 => by
      obtain ⟨r', d', rfl⟩ : ∃ (r' : Fin 8) (d' : Fin 1024), i = ix2 r' d' := ⟨i 0, i 1, eq_ix2 i⟩
      rw [step_apply m c n h acc r' d', if_neg (by omega)])
    (t.val % 16) (by omega) _ (ix2 r d)]
  rw [hlast, zero_add]
  refine Eq.trans ?_ (sum_tiles fun s => xArr m c (ix3 ⟨8 * (t.val / 16) + r.val, hbt⟩ s d))
  refine Finset.sum_congr rfl fun s hs => ?_
  have hs' : s < 16 := Finset.mem_range.mp hs
  have hb : 16 * (t.val / 16) + s < cfg0.N := by omega
  unfold tileSum
  rw [dif_pos hb]
  refine Finset.sum_congr rfl fun k _ => ?_
  have hk : 256 * s + k.val < 4096 := by have := k.isLt; omega
  rw [dif_pos hk]
  exact tile_read m c ⟨16 * (t.val / 16) + s, hb⟩ (t.val / 16) s (by show (16 * (t.val / 16) + s) / 16 = _; omega)
    (by show (16 * (t.val / 16) + s) % 16 = _; omega) r k d hbt hk

end Cert.KernelIdeal.RunningSum

end
-- ==== Proof.KernelValue.lean ====
/-
  The kernel's result array is the pooled layers of its arguments.

  The output block of batch group q is written back once, after the group's last row tile. By then the scratch block
  holds the sums over all 4096 rows for the group's 8 batches, so the block written is rows 8·q … 8·q + 7 of the pooled
  layers. The two batch groups' blocks cover the [16, 1024] result, so the whole array is the pooled layers.
-/
import proofs.«126975_j83210696393590_1_alg».proof.Proof.RunningSum

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.DenseRows Cert.PooledLayers
open Cert.KernelIdeal.CaseValues Cert.KernelIdeal.TileArithmetic Cert.KernelIdeal.BlockReads Cert.KernelIdeal.RunningSum
open scoped BigOperators

variable (m : (ℓ : Loc nD τ sig) → Buf (Elt Ideal) ℓ) (ρ : Dev nD → PrngReg)

/-- The result: the pooled layers of the argument arrays as launched. -/
def result (c : Dev nD) : Buf (Elt Ideal) ((c : Thread nD τ).loc main_v0) :=
  pooledLayers (m ((c : Thread nD τ).loc main_arg0)) (m ((c : Thread nD τ).loc main_arg1))
    (m ((c : Thread nD τ).loc main_arg2)) (m ((c : Thread nD τ).loc main_arg3)) (m ((c : Thread nD τ).loc main_arg4))

/-- The epilogue applied to a running sum that holds, in row r, the sums over all 4096 rows of batch 8·q + r is row
    8·q + r of the pooled layers. -/
theorem layers_of_sums (X : FVec Ideal ⟨3, ![16, 4096, 1024]⟩ .f32) (w1 : Vec Ideal S1024x1024 .f32)
    (b1 : Vec Ideal S1024 .f32) (w2 : Vec Ideal S1024x1024 .f32) (b2 : Vec Ideal S1024 .f32)
    (acc : Vec Ideal S8x1024 .f32) (q : ℕ) (r : Fin 8) (o : Fin 1024) (hb : 8 * q + r.val < 16)
    (hacc : ∀ d : Fin 1024, acc (ix2 r d) = ∑ s : Fin 4096, X (ix3 ⟨8 * q + r.val, hb⟩ s d)) :
    k0_pay3 (F := Ideal) acc w1 b1 w2 b2 (ix2 r o) = pooledLayers X w1 b1 w2 b2 (ix2 ⟨8 * q + r.val, hb⟩ o) := by
  rw [layers_apply]
  have e : (fun d => acc (ix2 r d) * Ideal.ofBits .f32 0x39800000#32) = rowMean X ⟨8 * q + r.val, hb⟩ :=
    funext fun d => by rw [hacc d]; rfl
  rw [e]
  rfl

/-- After a batch group's last tile the scratch block holds what it held before plus that tile's column sums. -/
theorem scratch_at_last (c : Dev nD) (t : Fin cfg0.N) (h0 : ¬t.val % 16 = 0) (h1 : t.val % 16 = 15) :
    (outsAt0 m c t.val t.isLt).2 = k0_pay2 (outsAt0 m c (t.val - 1) (Nat.lt_of_le_of_lt (Nat.sub_le _ _) t.isLt)).2 (iblk m c 0 t) := by
  rw [outsAt0_C m c t h0 h1]
  dsimp only
  exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- What the last tile's point leaves in the output block: the epilogue of the scratch block as the point leaves it. -/
theorem output_at_last (c : Dev nD) (t : Fin cfg0.N) (h0 : ¬t.val % 16 = 0) (h1 : t.val % 16 = 15) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2
      = k0_pay3 (outsAt0 m c t.val t.isLt).2 (iblk m c 1 t) (iblk m c 2 t) (iblk m c 3 t) (iblk m c 4 t) := by
  rw [scratch_at_last m c t h0 h1]
  exact output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- What a point that writes the output block back writes is its block of the pooled layers. -/
theorem flushed_eq (c : Dev nD) (t : Fin cfg0.N) (hf : (cfg0.win 5).flush t = true) :
    (dats m 0 c).flushed 5 t = ((cfg0.win 5).blk t).view.read (Elt Ideal) (result m c) := by
  have hN : cfg0.N = 32 := N_0
  have ht : t.val < 32 := lt_of_lt_of_eq t.isLt hN
  have h1 : t.val % 16 = 15 := (flush0_5 t).mp hf
  have h0 : ¬t.val % 16 = 0 := by omega
  obtain ⟨-, -, -, -, -, -, -, -, -, e0, e1⟩ := index_facts t
  rw [Value.flushed5_C m c t h0 h1]
  refine (congrArg ((cfg0.win 5).cut (grid0.coords t)) (output_at_last m c t h0 h1)).trans ?_
  funext j
  obtain ⟨r, o, rfl⟩ : ∃ (r : Fin 8) (o : Fin 1024), j = ix2 r o := ⟨j 0, j 1, eq_ix2 j⟩
  have hb : 8 * (t.val / 16) + r.val < 16 := by have := r.isLt; omega
  show k0_pay3 (F := Ideal) (outsAt0 m c t.val t.isLt).2 (iblk m c 1 t) (iblk m c 2 t) (iblk m c 3 t) (iblk m c 4 t) (ix2 r o)
    = result m c (((cfg0.win 5).blk t).view.emb (ix2 r o))
  refine (layers_of_sums (xArr m c) (iblk m c 1 t) (iblk m c 2 t) (iblk m c 3 t) (iblk m c 4 t)
    (outsAt0 m c t.val t.isLt).2 (t.val / 16) r o hb (fun d => scratch_sum m c t h1 r d hb)).trans ?_
  rw [wEnc_read m c t, bEnc_read m c t, wOut_read m c t, bOut_read m c t]
  refine congrArg (result m c) (funext fun a => Fin.ext ?_)
  match a with
  | ⟨0, _⟩ => show 8 * (t.val / 16) + r.val = win0_5.index t (0 : Fin 2) * 8 + 1 * r.val; omega
  | ⟨1, _⟩ => show o.val = win0_5.index t (1 : Fin 2) * 1024 + 1 * o.val; omega

/-- Every entry of the result lies in the block written back after its batch group's last tile. -/
theorem covered (i : S16x1024.Idx) :
    ∃ t : Fin cfg0.N, (cfg0.win 5).flush t = true ∧ i ∈ ((cfg0.win 5).blk t).view.set := by
  have hN : cfg0.N = 32 := N_0
  have hi0 : (i 0).val < 16 := (i 0).isLt
  have hi1 : (i 1).val < 1024 := (i 1).isLt
  have hlt : 16 * ((i 0).val / 8) + 15 < cfg0.N := by omega
  refine ⟨⟨16 * ((i 0).val / 8) + 15, hlt⟩, (flush0_5 _).mpr (by show (16 * ((i 0).val / 8) + 15) % 16 = 15; omega), ?_⟩
  obtain ⟨-, -, -, -, -, -, -, -, -, e0, e1⟩ := index_facts (⟨16 * ((i 0).val / 8) + 15, hlt⟩ : Fin cfg0.N)
  have e0' : win0_5.index (⟨16 * ((i 0).val / 8) + 15, hlt⟩ : Fin cfg0.N) (0 : Fin 2) = (i 0).val / 8 := by
    rw [e0]; show (16 * ((i 0).val / 8) + 15) / 16 = _; omega
  show i ∈ ((View.whole main_v0).slice (win0_5.rect (⟨16 * ((i 0).val / 8) + 15, hlt⟩ : Fin cfg0.N))).set
  rw [View.set_slice_whole, Rect.mem_set_unit]
  intro a
  match a with
  | ⟨0, _⟩ =>
    show win0_5.index (⟨16 * ((i 0).val / 8) + 15, hlt⟩ : Fin cfg0.N) (0 : Fin 2) * 8 ≤ (i 0).val
      ∧ (i 0).val < win0_5.index (⟨16 * ((i 0).val / 8) + 15, hlt⟩ : Fin cfg0.N) (0 : Fin 2) * 8 + 8
    rw [e0']; omega
  | ⟨1, _⟩ =>
    show win0_5.index (⟨16 * ((i 0).val / 8) + 15, hlt⟩ : Fin cfg0.N) (1 : Fin 2) * 1024 ≤ (i 1).val
      ∧ (i 1).val < win0_5.index (⟨16 * ((i 0).val / 8) + 15, hlt⟩ : Fin cfg0.N) (1 : Fin 2) * 1024 + 1024
    rw [e1]; omega

/-- The result array after the run is the pooled layers of the arguments. -/
theorem final (c : Dev nD) : (dats m 0 c).arrAt 5 cfg0.N = result m c :=
  (dats m 0 c).arrAt_eq_of_cover 5 (result m c) (fun t hf => flushed_eq m c t hf) covered

/-- The kernel's run: every weakly fair execution ends with the result array at the pooled layers of the arguments,
    and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.KernelValue

end
-- ==== Proof.ReferenceIsPooled.lean ====
/-
  The reference computes the pooled layers.

  Read one operation at a time, the reference's result at (b, o) is a dense layer (a product against the transposed
  weights plus the bias row) applied to a dense layer applied to `(0 + Σ_s x (b, s, ·)) / 4096`. The leading zero is the
  sum's initial value and drops out; the division by 4096 is the product with 2⁻¹². What is left is the pooled mean
  sent through the two dense layers.
-/
import proofs.«126975_j83210696393590_1_alg».proof.Proof.Gen.ReferenceIdeal.Read
import proofs.«126975_j83210696393590_1_alg».proof.Proof.PooledLayers

noncomputable section

namespace Cert.ReferenceIdeal.RefValue

open Cert.ReferenceIdeal Cert.ReferenceIdeal.Gen Cert.ReferenceIdeal.Read
open Idealize.ShloMosaic Idealize.ShloMosaic.ValueIdx Cert.DenseRows Cert.PooledLayers
open scoped BigOperators

/-- The reference's mean: the sum over the 4096 rows from zero, divided by 4096, is the pooled mean. -/
theorem mean_apply (x0 : FVec Ideal S16x4096x1024 .f32) (p : Fin 16) (e : Fin 1024) :
    val_main_v2 (F := Ideal) x0 (ix2 p e) = rowMean x0 p e := by
  rw [val_main_v2_apply, val_main_v0_apply, val_main_v1_apply, val_main_cst_0_apply, val_main_cst_apply]
  show Ideal.div (Ideal.ofBits .f32 0x00000000#32 + ∑ k : Fin 4096, x0 (idx_main_v0 (ix2 p e) k))
      (Ideal.ofBits .f32 0x45800000#32) = _
  rw [Ideal.ofBits_zero_f32, zero_add, div_4096]
  unfold rowMean
  refine congrArg (· * Ideal.ofBits .f32 0x39800000#32) (Finset.sum_congr rfl fun k _ => congrArg x0 ?_)
  exact funext fun a => Fin.ext (by match a with | ⟨0, _⟩ => rfl | ⟨1, _⟩ => rfl | ⟨2, _⟩ => rfl)

/-- The reference's first layer at (b, h): the dense layer of the pooled mean of batch b. -/
theorem enc_apply (x0 : FVec Ideal S16x4096x1024 .f32) (x1 : FVec Ideal S1024x1024 .f32) (x2 : FVec Ideal S1024 .f32)
    (p : Fin 16) (h : Fin 1024) :
    val_main_v7 (F := Ideal) x0 x1 x2 (ix2 p h)
      = dense (rowMean x0 p) (fun h d => x1 (ix2 h d)) (fun h => x2 (ix1 h)) h := by
  refine (dense_host_apply dot_S16x1024_S1024x1024_S16x1024_1_0_0_1_n_n rfl (val_main_v2 (F := Ideal) x0) x1 x2
    transposes_S1024x1024_S1024x1024_1_0 bcast_S1024_S1x1024_1 bcast_S1x1024_S16x1024_0_1 p h).trans ?_
  simp only [mean_apply]

/-- The reference's result is the pooled layers of its arguments. -/
theorem result_eq (x0 : FVec Ideal S16x4096x1024 .f32) (x1 : FVec Ideal S1024x1024 .f32) (x2 : FVec Ideal S1024 .f32)
    (x3 : FVec Ideal S1024x1024 .f32) (x4 : FVec Ideal S1024 .f32) :
    val_main_v12 (F := Ideal) x0 x1 x2 x3 x4 = pooledLayers x0 x1 x2 x3 x4 := by
  funext i
  obtain ⟨p, o, rfl⟩ : ∃ (p : Fin 16) (o : Fin 1024), i = ix2 p o := ⟨i 0, i 1, eq_ix2 i⟩
  refine (dense_host_apply dot_S16x1024_S1024x1024_S16x1024_1_0_0_1_n_n rfl (val_main_v7 (F := Ideal) x0 x1 x2) x3 x4
    transposes_S1024x1024_S1024x1024_1_0 bcast_S1024_S1x1024_1 bcast_S1x1024_S16x1024_0_1 p o).trans ?_
  simp only [enc_apply]
  rfl

end Cert.ReferenceIdeal.RefValue

end
-- ==== Proof.lean ====
/-
  The kernel and its reference agree on the extended reals.

  Both programs take `x` [16, 4096, 1024], two [1024, 1024] weight matrices and two bias vectors, and return the
  [16, 1024] array `out b o = Σ_h (Σ_d mean b d · W_enc (h, d) + b_enc h) · W_out (o, h) + b_out o` with
  `mean b d` the mean of `x (b, ·, d)` over the 4096 rows.

  The reference sums the 4096 rows at once and divides by 4096. The kernel walks a 2 × 16 grid: for each group of 8
  batches it adds the column sums of 16 tiles of 256 rows into a scratch block, and after the last tile multiplies by
  the f32 word for 2⁻¹², applies the two layers and writes the group's 8 rows of the result. Regrouping the 4096 rows
  into 16 tiles uses only that addition is commutative and associative, and dividing an extended real by 4096 is
  multiplying it by 2⁻¹², so the two results are equal entry by entry, whatever the inputs: the finiteness of the
  inputs is not used.

  The three frame claims are the generated runs (the reference's with its result dropped); the idealization rewrote
  nothing, so the preservation claim is trivial.
-/
import proofs.«126975_j83210696393590_1_alg».proof.Defs
import proofs.«126975_j83210696393590_1_alg».proof.Proof.Gen.Kernel
import proofs.«126975_j83210696393590_1_alg».proof.Proof.Gen.Kernel.Skeleton
import proofs.«126975_j83210696393590_1_alg».proof.Proof.Gen.Kernel.Launch
import proofs.«126975_j83210696393590_1_alg».proof.Proof.Gen.Kernel.Points
import proofs.«126975_j83210696393590_1_alg».proof.Proof.Gen.Kernel.Frame
import proofs.«126975_j83210696393590_1_alg».proof.Proof.Gen.KernelIdeal
import proofs.«126975_j83210696393590_1_alg».proof.Proof.Gen.KernelIdeal.Skeleton
import proofs.«126975_j83210696393590_1_alg».proof.Proof.Gen.KernelIdeal.Launch
import proofs.«126975_j83210696393590_1_alg».proof.Proof.Gen.KernelIdeal.Points
import proofs.«126975_j83210696393590_1_alg».proof.Proof.Gen.KernelIdeal.Frame
import proofs.«126975_j83210696393590_1_alg».proof.Proof.Gen.ReferenceIdeal
import proofs.«126975_j83210696393590_1_alg».proof.Proof.Gen.Pre_finite_inputs
import proofs.«126975_j83210696393590_1_alg».proof.Proof.Gen.KernelIdeal.Value
import proofs.«126975_j83210696393590_1_alg».proof.Proof.Gen.ReferenceIdeal.Run
import proofs.«126975_j83210696393590_1_alg».proof.Proof.Gen.ReferenceIdeal.Read
import proofs.«126975_j83210696393590_1_alg».proof.Proof.KernelValue
import proofs.«126975_j83210696393590_1_alg».proof.Proof.ReferenceIsPooled
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations. -/
theorem preserves : Cert.preserves_Kernel_KernelIdeal := trivial

/-- From memories that agree on the arguments the kernel's result array and the reference's both end at the pooled
    layers of the arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
